-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x4096x1024 .f32) (main_arg1 : FVec F S1024x4096 .f32) (main_arg2 : FVec F S4096 .f32) (main_arg3 : FVec F S4096x1024 .f32) (main_arg4 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S4x4096x1024 : Shape := ⟨3, ![4, 4096, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S16384x1024 : Shape := ⟨2, ![16384, 1024]⟩
abbrev S1x4096 : Shape := ⟨2, ![1, 4096]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S1x512 : Shape := ⟨2, ![1, 512]⟩

abbrev nBuf : Space → Nat
  | .hbm => 12
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S1024x4096, .bf16⟩
  | .hbm, ⟨7, _⟩ => ⟨S4096x1024, .bf16⟩
  | .hbm, ⟨8, _⟩ => ⟨S1x4096, .f32⟩
  | .hbm, ⟨9, _⟩ => ⟨S1x1024, .f32⟩
  | .hbm, ⟨10, _⟩ => ⟨S16384x1024, .f32⟩
  | .hbm, ⟨11, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S1x4096, .f32⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c512_i32 : BitVec 32 := 512#32
  let v14 : BitVec 32 := Scalar.muli arg8 c512_i32
  v14
def k0_off1 (k0_t1 : Fin k0_t1_loop.trips) : Fin 2 → Nat :=
  let c0_10 : Index := 0#32
  let c0_i32 : BitVec 32 := 0#32
  let c1_i32 : BitVec 32 := 1#32
  let arg8 : BitVec 32 := Scf.iv c0_i32 c1_i32 k0_t1
  let c512_i32 : BitVec 32 := 512#32
  let v14 : BitVec 32 := Scalar.muli arg8 c512_i32
  let v15 : BitVec 32 := v14
  let v16 : Index := Scalar.indexCast v15
  ![0, v16.toNat]
def k0_off2 (k0_t1 : Fin k0_t1_loop.trips) : Fin 2 → Nat :=
  let c0_12 : Index := 0#32
  let c0_i32 : BitVec 32 := 0#32
  let c1_i32 : BitVec 32 := 1#32
  let arg8 : BitVec 32 := Scf.iv c0_i32 c1_i32 k0_t1
  let c512_i32 : BitVec 32 := 512#32
  let v14 : BitVec 32 := Scalar.muli arg8 c512_i32
  let v15 : BitVec 32 := v14
  let v20 : Index := Scalar.indexCast v15
  ![0, v20.toNat]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c512_i32 : BitVec 32 := 512#32
  let v14 : BitVec 32 := Scalar.muli arg8 c512_i32
  let v15 : BitVec 32 := v14
  let v37 : Index := Scalar.indexCast v15
  let c0_17 : Index := 0#32
  ![v37.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x4096x1024_S16384x1024 : S4x4096x1024.ShapeCasts S16384x1024
  bitsLt_bf16_f32 : FTy.bits .bf16 < FTy.bits .f32
  shapeCasts_S4096_S1x4096 : S4096.ShapeCasts S1x4096
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  h_S1024x512 : 0 < S1024x512.numel
  shapeCasts_S1024x512_S1024x512 : S1024x512.ShapeCasts S1024x512
  h_S1x512 : 0 < S1x512.numel
  shapeCasts_S1x512_S1x512 : S1x512.ShapeCasts S1x512
  broadcasts_S1x512_S512x512 : S1x512.Broadcasts S512x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x1024_S4x4096x1024 : S16384x1024.ShapeCasts S4x4096x1024
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1024x512.size a ≤ S1024x4096.size a
  k0_off2_inb : ∀ k0_t1 : Fin k0_t1_loop.trips, ∀ a, (k0_off2 k0_t1) a + S1x512.size a ≤ S1x4096.size a
  k0_off3_inb : ∀ k0_t1 : Fin k0_t1_loop.trips, ∀ a, (k0_off3 k0_t1) a + S512x1024.size a ≤ S4096x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S1024x4096 : Shape := ⟨2, ![1024, 4096]⟩
abbrev S4096 : Shape := ⟨1, ![4096]⟩
abbrev S4096x1024 : Shape := ⟨2, ![4096, 1024]⟩
abbrev S1024 : Shape := ⟨1, ![1024]⟩
abbrev S4x4096x4096 : Shape := ⟨3, ![4, 4096, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x4096, .f32⟩
  | .hbm, ⟨2, _⟩ => ⟨S4096, .f32⟩
  | .hbm, ⟨3, _⟩ => ⟨S4096x1024, .f32⟩
  | .hbm, ⟨4, _⟩ => ⟨S1024, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S_, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S1024x4096_S4x4096x4096_2_0_01_1_n_n_wf : DotDims.WF S4x4096x1024 S1024x4096 S4x4096x4096 [2] [0] [0, 1] [1] [] []
  dot_S4x4096x4096_S4096x1024_S4x4096x1024_2_0_01_1_n_n_wf : DotDims.WF S4x4096x4096 S4096x1024 S4x4096x1024 [2] [0] [0, 1] [1] [] []

variable [Facts₀]

def dot_S4x4096x1024_S1024x4096_S4x4096x4096_2_0_01_1_n_n : DotDims S4x4096x1024 S1024x4096 S4x4096x4096 where
  lhsContracting := [2]
  rhsContracting := [0]
  lhsNonContracting := [0, 1]
  rhsNonContracting := [1]
  lhsBatch := []
  rhsBatch := []
  wf := dot_S4x4096x1024_S1024x4096_S4x4096x4096_2_0_01_1_n_n_wf
def dot_S4x4096x4096_S4096x1024_S4x4096x1024_2_0_01_1_n_n : DotDims S4x4096x4096 S4096x1024 S4x4096x1024 where
  lhsContracting := [2]
  rhsContracting := [0]
  lhsNonContracting := [0, 1]
  rhsNonContracting := [1]
  lhsBatch := []
  rhsBatch := []
  wf := dot_S4x4096x4096_S4096x1024_S4x4096x1024_2_0_01_1_n_n_wf

class Facts : Prop extends Facts₀ where

variable [Facts]
-- ==== Proof.LoopFold.lean ====
/-
  What one grid point's body leaves in the output block, as a pure function of the blocks it is handed.

  The body zeroes a [512, 1024] accumulator, then runs eight trips; trip `k` reads columns `512k … 512k+511` of the first
  weight matrix, the same entries of the first bias and rows `512k … 512k+511` of the second weight matrix, and replaces the
  accumulator `a` by `step k a` (the accumulator plus that chunk's contribution); after the last trip the second bias is
  added and the block stored. So the block is `finish (step 7 (… (step 0 zero)))`: a fold over the trips, stated here
  for any float values; nothing is computed.
-/
import proofs.«117003_j70214125355100_2_alg».proof.Proof.Gen.KernelIdeal.Frame
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.ShloMosaic.Tactic Idealize.SL.Sem

variable {F : FTy → Type} [FloatOps F]

/-- The offsets `(0, 0)` are the zero offsets. -/
theorem zero_off : (![0, 0] : Fin 2 → Nat) = fun _ => 0 := by
  funext a; fin_cases a <;> rfl

/-- The loop makes eight trips. -/
theorem trips_eq : k0_t1_loop.trips = 8 := by decide +kernel

/-- Columns `512k … 512k+511` of the first weight matrix: what trip `k` loads of it. -/
def wInChunk (X : Vec F S1024x4096 .bf16) (k : Fin k0_t1_loop.trips) : Vec F S1024x512 .bf16 :=
  View.ld X (Rect.unit (s := S1024x4096) (k0_off1 k) S1024x512.size (k0_off1_inb k))

/-- Entries `512k … 512k+511` of the first bias row: what trip `k` loads of it. -/
def bInChunk (X : Vec F S1x4096 .f32) (k : Fin k0_t1_loop.trips) : Vec F S1x512 .f32 :=
  View.ld X (Rect.unit (s := S1x4096) (k0_off2 k) S1x512.size (k0_off2_inb k))

/-- Rows `512k … 512k+511` of the second weight matrix: what trip `k` loads of it. -/
def wOutChunk (X : Vec F S4096x1024 .bf16) (k : Fin k0_t1_loop.trips) : Vec F S512x1024 .bf16 :=
  View.ld X (Rect.unit (s := S4096x1024) (k0_off3 k) S512x1024.size (k0_off3_inb k))

/-- The accumulator after `k` trips, started at `a₀`: each trip applies the loop body's arithmetic to the accumulator it
    finds and the three chunks it loads. -/
def accAfter (x : Vec F S512x1024 .f32) (X2 : Vec F S1024x4096 .bf16) (X3 : Vec F S1x4096 .f32) (X4 : Vec F S4096x1024 .bf16)
    (a₀ : Vec F S512x1024 .f32) : ℕ → Vec F S512x1024 .f32
  | 0 => a₀
  | k + 1 =>
    if h : k < k0_t1_loop.trips then
      k0_pay2 x (wInChunk X2 ⟨k, h⟩) (bInChunk X3 ⟨k, h⟩) (wOutChunk X4 ⟨k, h⟩) (accAfter x X2 X3 X4 a₀ k)
    else accAfter x X2 X3 X4 a₀ k

theorem accAfter_succ (x : Vec F S512x1024 .f32) (X2 : Vec F S1024x4096 .bf16) (X3 : Vec F S1x4096 .f32) (X4 : Vec F S4096x1024 .bf16)
    (a₀ : Vec F S512x1024 .f32) (k : Fin k0_t1_loop.trips) :
    accAfter x X2 X3 X4 a₀ (k.val + 1)
      = k0_pay2 x (wInChunk X2 k) (bInChunk X3 k) (wOutChunk X4 k) (accAfter x X2 X3 X4 a₀ k.val) := by
  rw [accAfter]; exact dif_pos k.isLt

/-- A buffer whose last store filled the whole block reads that store's payload, whatever it held before. -/
theorem read_writes_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  refine (View.read_writes_eq_canon v f _ ?_).trans (View.canon_unit_zero h inb w)
  exact fun y => ⟨_, List.mem_singleton_self _, View.mem_set_unit_zero h inb y⟩

/-- ONE TRIP's store: the whole accumulator block, holding the loop body's arithmetic of the accumulator read back and the
    three chunks loaded. -/
theorem tripL_eq (𝒱 : Variants) (c : Dev nD) (bd : Option 𝒱.V) (i : grid0.Coords) (arg1 : Memref sig .tc .vmem S512x1024 .f32) (harg1 : arg1.IsWhole) (arg2 : Memref sig .tc .vmem S1024x4096 .bf16) (harg2 : arg2.IsWhole) (arg3 : Memref sig .tc .vmem S1x4096 .f32) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (v0 : Vec F S512x1024 .f32) (X_arg2 : BufTy.Contents (Elt F) arg2.view.ty) (X_arg3 : BufTy.Contents (Elt F) arg3.view.ty) (X_arg4 : BufTy.Contents (Elt F) arg4.view.ty) (k : Fin k0_t1_loop.trips) (f_arg7 : BufTy.Contents (Elt F) arg7.view.ty) :
    tripL_k0_t1 (F := F) 𝒱 c bd i arg1 harg1 arg2 harg2 arg3 harg3 arg4 harg4 arg5 harg5 arg6 harg6 arg7 harg7 v0 X_arg2 X_arg3 X_arg4 k f_arg7
      = [⟨Rect.unit (s := S512x1024) ![0, 0] S512x1024.size inb_S512x1024_S512x1024_0_0,
          k0_pay2 v0 (wInChunk (arg2.view.read (Elt F) X_arg2) k) (bInChunk (arg3.view.read (Elt F) X_arg3) k)
            (wOutChunk (arg4.view.read (Elt F) X_arg4) k) (arg7.view.read (Elt F) f_arg7)⟩] := by
  unfold tripL_k0_t1 trip_k0_t1
  dsimp only
  simp only [View.readAt_eq_ld, View.ld_unit_zero (S := S512x1024) zero_off]
  rfl

/-- THE LOOP AS A FOLD: the accumulator memref, after the pieces of the trips before `k` written over contents `G`, reads
    the accumulator recursion started at what `G` reads. -/
theorem read_after_trips (𝒱 : Variants) (c : Dev nD) (bd : Option 𝒱.V) (i : grid0.Coords) (arg1 : Memref sig .tc .vmem S512x1024 .f32) (harg1 : arg1.IsWhole) (arg2 : Memref sig .tc .vmem S1024x4096 .bf16) (harg2 : arg2.IsWhole) (arg3 : Memref sig .tc .vmem S1x4096 .f32) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (v0 : Vec F S512x1024 .f32) (X_arg2 : BufTy.Contents (Elt F) arg2.view.ty) (X_arg3 : BufTy.Contents (Elt F) arg3.view.ty) (X_arg4 : BufTy.Contents (Elt F) arg4.view.ty) (G_arg7 : BufTy.Contents (Elt F) arg7.view.ty) :
    ∀ k : ℕ, k ≤ k0_t1_loop.trips →
      arg7.view.read (Elt F) (arg7.view.writes (Elt F) G_arg7
          (pb_k0_t1 (F := F) 𝒱 c bd i arg1 harg1 arg2 harg2 arg3 harg3 arg4 harg4 arg5 harg5 arg6 harg6 arg7 harg7 v0 X_arg2 X_arg3 X_arg4 G_arg7 k))
        = accAfter v0 (arg2.view.read (Elt F) X_arg2) (arg3.view.read (Elt F) X_arg3) (arg4.view.read (Elt F) X_arg4)
            (arg7.view.read (Elt F) G_arg7) k
  | 0, _ => rfl
  | k + 1, hk => by
    have ih := read_after_trips 𝒱 c bd i arg1 harg1 arg2 harg2 arg3 harg3 arg4 harg4 arg5 harg5 arg6 harg6 arg7 harg7 v0 X_arg2 X_arg3 X_arg4 G_arg7 k (Nat.le_of_succ_le hk)
    rw [show k + 1 = (⟨k, hk⟩ : Fin k0_t1_loop.trips).val + 1 from rfl, pb_k0_t1_succ, accAfter_succ, View.writes_append,
      tripL_eq, read_writes_whole _ _ zero_off]
    exact congrArg _ ih

/-- THE BLOCK A POINT LEAVES: the second bias added to the accumulator after all the trips, started from the zero fill. -/
theorem out_eq (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S1x4096 .f32) (harg3 : arg3.IsWhole) (arg4 : Memref sig .tc .vmem S4096x1024 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (x0 : Vec F S512x1024 .f32) (x1 : Vec F S1024x4096 .bf16) (x2 : Vec F S1x4096 .f32) (x3 : Vec F S4096x1024 .bf16) (x4 : Vec F S1x1024 .f32) :
    out0_A_5 c i arg1 harg1 arg2 harg2 arg3 harg3 arg4 harg4 arg5 harg5 arg6 harg6 arg7 harg7 x0 x1 x2 x3 x4
      = k0_pay3 (accAfter x0 x1 x2 x3 (k0_pay1 (F := F)) k0_t1_loop.trips) x4 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  rw [View.canon_unit_zero zero_off]
  simp only [View.readAt_eq_ld, View.ld_unit_zero (S := S512x1024) zero_off, View.ld_unit_zero (S := S1x1024) zero_off,
    harg1.read_unread, harg5.read_unread]
  rw [View.writes_append, read_after_trips _ c _ i arg1 harg1 arg2 harg2 arg3 harg3 arg4 harg4 arg5 harg5 arg6 harg6 arg7 harg7 _ _ _ _ _ _ (le_refl _),
    read_writes_whole _ _ zero_off, harg2.read_unread, harg3.read_unread, harg4.read_unread]

end Cert.KernelIdeal.Body

end
-- ==== Proof.Spec.lean ====
/-
  The feed-forward block as mathematics over the extended reals, independent of either program.

  A row `x` of 1024 features is projected to 4096 hidden features `h f = (∑ k, x k · w k f) + b f`, each hidden
  feature passes through the polynomial activation `h ↦ h · σ(c₁ · h)`, `σ z = p + q·z − c₂·z³`, and the result is
  projected back, `out d = (∑ f, act (h f) · w' f d) + b' d`.

  The activation's polynomial is written in two arrangements: factored, `p + z·(q − c₂·(z·z))`, and expanded,
  `(p + q·z) − c₂·((z·z)·z)`. Over the reals they are one polynomial (distributivity); over the extended reals
  distributivity fails at the infinities, so the two are identified only at a real argument with real coefficients
  — which is where finiteness of the inputs is used.

  The sum over the 4096 hidden features is also split into 8 consecutive chunks of 512: a re-association, valid in any
  commutative monoid, no finiteness needed.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-! ## The activation in its two arrangements -/

/-- `h · (p + z·(q − c₂·(z·z)))` with `z = c₁·h`: the polynomial factored. -/
def actFactored (c₁ c₂ q p h : EReal) : EReal :=
  h * (p + (c₁ * h) * (q - c₂ * ((c₁ * h) * (c₁ * h))))

/-- `h · ((p + q·z) − c₂·((z·z)·z))` with `z = c₁·h`: the polynomial expanded. -/
def actExpanded (c₁ c₂ q p h : EReal) : EReal :=
  h * ((p + q * (c₁ * h)) - c₂ * (((c₁ * h) * (c₁ * h)) * (c₁ * h)))

/-- At real coefficients and a real argument the two arrangements are one real number. -/
theorem actFactored_eq_actExpanded (c₁ c₂ q p h : ℝ) :
    actFactored (c₁ : EReal) c₂ q p h = actExpanded (c₁ : EReal) c₂ q p h := by
  unfold actFactored actExpanded
  simp only [← EReal.coe_mul, ← EReal.coe_add, ← EReal.coe_sub]
  congr 1
  ring

/-! ## The four coefficients are real numbers -/

/-- A pattern whose exponent field is not all ones denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  simp only []
  rw [if_neg h]
  split_ifs <;> exact ⟨_, rfl⟩

/-- The scale `c₁` inside the activation (the f32 nearest 1.702). -/
abbrev cScale : EReal := Ideal.ofBits .f32 0x3FD9DB23#32
/-- The cubic coefficient `c₂` (the f32 nearest 0.0208). -/
abbrev cCubic : EReal := Ideal.ofBits .f32 0x3CAA64C3#32
/-- The linear coefficient `q` (one quarter). -/
abbrev cLinear : EReal := Ideal.ofBits .f32 0x3E800000#32
/-- The constant coefficient `p` (one half). -/
abbrev cConst : EReal := Ideal.ofBits .f32 0x3F000000#32

theorem cScale_real : ∃ r : ℝ, cScale = (r : EReal) := ieee_real 8 23 (0x3FD9DB23#32) (by decide)
theorem cCubic_real : ∃ r : ℝ, cCubic = (r : EReal) := ieee_real 8 23 (0x3CAA64C3#32) (by decide)
theorem cLinear_real : ∃ r : ℝ, cLinear = (r : EReal) := ieee_real 8 23 (0x3E800000#32) (by decide)
theorem cConst_real : ∃ r : ℝ, cConst = (r : EReal) := ieee_real 8 23 (0x3F000000#32) (by decide)

/-- The activation as the factored polynomial with the program's coefficients. -/
def gFactored (h : EReal) : EReal := actFactored cScale cCubic cLinear cConst h
/-- The activation as the expanded polynomial with the program's coefficients. -/
def gExpanded (h : EReal) : EReal := actExpanded cScale cCubic cLinear cConst h

/-- At a real argument the two activations agree. -/
theorem gFactored_eq_gExpanded (h : ℝ) : gFactored h = gExpanded h := by
  obtain ⟨a, ha⟩ := cScale_real
  obtain ⟨b, hb⟩ := cCubic_real
  obtain ⟨c, hc⟩ := cLinear_real
  obtain ⟨d, hd⟩ := cConst_real
  unfold gFactored gExpanded
  rw [ha, hb, hc, hd]
  exact actFactored_eq_actExpanded a b c d h

/-! ## One row through the block -/

/-- Hidden feature `f` of a row before the activation. -/
def hidden (x : Fin 1024 → EReal) (w : Fin 1024 → Fin 4096 → EReal) (b : Fin 4096 → EReal) (f : Fin 4096) : EReal :=
  (∑ k : Fin 1024, x k * w k f) + b f

/-- Output feature `d` of a row, for an activation `g`. -/
def outRow (g : EReal → EReal) (x : Fin 1024 → EReal) (w : Fin 1024 → Fin 4096 → EReal) (b : Fin 4096 → EReal)
    (w' : Fin 4096 → Fin 1024 → EReal) (b' : Fin 1024 → EReal) (d : Fin 1024) : EReal :=
  (∑ f : Fin 4096, g (hidden x w b f) * w' f d) + b' d

/-- A finite sum of real numbers is a real number. -/
theorem sum_real {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- With real inputs every hidden feature is a real number. -/
theorem hidden_real (x : Fin 1024 → EReal) (w : Fin 1024 → Fin 4096 → EReal) (b : Fin 4096 → EReal)
    (hx : ∀ k, ∃ r : ℝ, x k = (r : EReal)) (hw : ∀ k f, ∃ r : ℝ, w k f = (r : EReal)) (hb : ∀ f, ∃ r : ℝ, b f = (r : EReal))
    (f : Fin 4096) : ∃ r : ℝ, hidden x w b f = (r : EReal) := by
  choose xr hxr using hx
  choose wr hwr using hw
  choose br hbr using hb
  refine ⟨(∑ k : Fin 1024, xr k * wr k f) + br f, ?_⟩
  unfold hidden
  rw [EReal.coe_add, ← sum_real, hbr f]
  congr 1
  refine Finset.sum_congr rfl fun k _ => ?_
  rw [hxr k, hwr k f, EReal.coe_mul]

/-- So with real inputs the row's output does not depend on the arrangement of the activation's polynomial. -/
theorem outRow_factored_eq_expanded (x : Fin 1024 → EReal) (w : Fin 1024 → Fin 4096 → EReal) (b : Fin 4096 → EReal)
    (w' : Fin 4096 → Fin 1024 → EReal) (b' : Fin 1024 → EReal)
    (hx : ∀ k, ∃ r : ℝ, x k = (r : EReal)) (hw : ∀ k f, ∃ r : ℝ, w k f = (r : EReal)) (hb : ∀ f, ∃ r : ℝ, b f = (r : EReal))
    (d : Fin 1024) : outRow gFactored x w b w' b' d = outRow gExpanded x w b w' b' d := by
  unfold outRow
  congr 1
  refine Finset.sum_congr rfl fun f _ => ?_
  obtain ⟨r, hr⟩ := hidden_real x w b hx hw hb f
  rw [hr, gFactored_eq_gExpanded]

/-! ## The hidden axis in eight chunks of 512 -/

/-- Hidden feature `j` of chunk `c`. -/
def chunkIdx (c : Fin 8) (j : Fin 512) : Fin 4096 := ⟨c.val * 512 + j.val, by have := c.isLt; have := j.isLt; omega⟩

/-- A sum over the 4096 hidden features is the sum over the chunks of the sums within each chunk. -/
theorem sum_chunks {M : Type*} [AddCommMonoid M] (g : Fin 4096 → M) :
    ∑ f : Fin 4096, g f = ∑ c : Fin 8, ∑ j : Fin 512, g (chunkIdx c j) := by
  rw [← Equiv.sum_comp (finProdFinEquiv : Fin 8 × Fin 512 ≃ Fin 4096) g, Fintype.sum_prod_type]
  refine Finset.sum_congr rfl fun c _ => Finset.sum_congr rfl fun j _ => congrArg g (Fin.ext ?_)
  show j.val + 512 * c.val = c.val * 512 + j.val
  omega

/-! ## The whole array -/

/-- The block applied to every row of a [4, 4096, 1024] array, for an activation `g`: entry `(b, s, d)` is output feature
    `d` of row `(b, s)`. -/
def G (g : EReal → EReal) (x : (⟨3, ![4, 4096, 1024]⟩ : Shape).Idx → EReal) (w : (⟨2, ![1024, 4096]⟩ : Shape).Idx → EReal)
    (b : (⟨1, ![4096]⟩ : Shape).Idx → EReal) (w' : (⟨2, ![4096, 1024]⟩ : Shape).Idx → EReal)
    (b' : (⟨1, ![1024]⟩ : Shape).Idx → EReal) : (⟨3, ![4, 4096, 1024]⟩ : Shape).Idx → EReal :=
  fun i => outRow g (fun k => x (ix3 (i 0) (i 1) k)) (fun k f => w (ix2 k f)) (fun f => b (ix1 f))
    (fun f d => w' (ix2 f d)) (fun d => b' (ix1 d)) (i 2)

/-- With real inputs the whole array does not depend on the arrangement of the activation's polynomial. -/
theorem G_factored_eq_expanded (x : (⟨3, ![4, 4096, 1024]⟩ : Shape).Idx → EReal) (w : (⟨2, ![1024, 4096]⟩ : Shape).Idx → EReal)
    (b : (⟨1, ![4096]⟩ : Shape).Idx → EReal) (w' : (⟨2, ![4096, 1024]⟩ : Shape).Idx → EReal)
    (b' : (⟨1, ![1024]⟩ : Shape).Idx → EReal)
    (hx : ∀ i, ∃ r : ℝ, x i = (r : EReal)) (hw : ∀ i, ∃ r : ℝ, w i = (r : EReal)) (hb : ∀ i, ∃ r : ℝ, b i = (r : EReal)) :
    G gFactored x w b w' b' = G gExpanded x w b w' b' := by
  funext i
  exact outRow_factored_eq_expanded _ _ _ _ _ (fun k => hx _) (fun k f => hw _) (fun f => hb _) (i 2)

end Cert.Mlp

end
-- ==== Proof.Payloads.lean ====
/-
  The body's arithmetic read at an index, over the extended reals.

  At the ideal values a change of float format is the identity and a matrix product into a zero accumulator is the plain
  sum of products over the contracted axis. So, entry `(p, q)` of one trip's new accumulator is the old entry plus
  `∑ j, act (h p j) · w' j q` over the chunk's 512 hidden features, with `h p j = (∑ k, x p k · w k j) + b j` and `act` the
  activation with its polynomial factored; the zero fill is `0`; the finishing step adds the second bias' entry `q`.
-/
import proofs.«117003_j70214125355100_2_alg».proof.Proof.Gen.KernelIdeal.Skeleton
import proofs.«117003_j70214125355100_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.ValueIdx Cert.Mlp

/-! ## The two matrix products: operand indices at an output index and a contraction index -/

theorem lhsIn0 (j : S512x512.Idx) (q : dot_S512x1024_S1024x512_S512x512_1_0_0_1_n_n.contr.Idx) :
    (dot_S512x1024_S1024x512_S512x512_1_0_0_1_n_n.lhsIdx j q 0).val = (j 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhsIn1 (j : S512x512.Idx) (q : dot_S512x1024_S1024x512_S512x512_1_0_0_1_n_n.contr.Idx) :
    (dot_S512x1024_S1024x512_S512x512_1_0_0_1_n_n.lhsIdx j q 1).val = (q ⟨0, by decide⟩).val :=
  dot_S512x1024_S1024x512_S512x512_1_0_0_1_n_n.lhsIdx_val_of_single rfl j q
theorem rhsIn0 (j : S512x512.Idx) (q : dot_S512x1024_S1024x512_S512x512_1_0_0_1_n_n.contr.Idx) :
    (dot_S512x1024_S1024x512_S512x512_1_0_0_1_n_n.rhsIdx j q 0).val = (q ⟨0, by decide⟩).val :=
  dot_S512x1024_S1024x512_S512x512_1_0_0_1_n_n.rhsIdx_val_of_single rfl j q
theorem rhsIn1 (j : S512x512.Idx) (q : dot_S512x1024_S1024x512_S512x512_1_0_0_1_n_n.contr.Idx) :
    (dot_S512x1024_S1024x512_S512x512_1_0_0_1_n_n.rhsIdx j q 1).val = (j 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

theorem lhsOut0 (j : S512x1024.Idx) (q : dot_S512x512_S512x1024_S512x1024_1_0_0_1_n_n.contr.Idx) :
    (dot_S512x512_S512x1024_S512x1024_1_0_0_1_n_n.lhsIdx j q 0).val = (j 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhsOut1 (j : S512x1024.Idx) (q : dot_S512x512_S512x1024_S512x1024_1_0_0_1_n_n.contr.Idx) :
    (dot_S512x512_S512x1024_S512x1024_1_0_0_1_n_n.lhsIdx j q 1).val = (q ⟨0, by decide⟩).val :=
  dot_S512x512_S512x1024_S512x1024_1_0_0_1_n_n.lhsIdx_val_of_single rfl j q
theorem rhsOut0 (j : S512x1024.Idx) (q : dot_S512x512_S512x1024_S512x1024_1_0_0_1_n_n.contr.Idx) :
    (dot_S512x512_S512x1024_S512x1024_1_0_0_1_n_n.rhsIdx j q 0).val = (q ⟨0, by decide⟩).val :=
  dot_S512x512_S512x1024_S512x1024_1_0_0_1_n_n.rhsIdx_val_of_single rfl j q
theorem rhsOut1 (j : S512x1024.Idx) (q : dot_S512x512_S512x1024_S512x1024_1_0_0_1_n_n.contr.Idx) :
    (dot_S512x512_S512x1024_S512x1024_1_0_0_1_n_n.rhsIdx j q 1).val = (j 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The first product, a row block [512, 1024] by a column chunk [1024, 512] into zero: entry `(p, c)` is `∑ k, l p k · r k c`. -/
theorem matmulIn_apply (l : FVec Ideal S512x1024 .bf16) (r : FVec Ideal S1024x512 .bf16) (p : Fin 512) (c : Fin 512) :
    matmul dot_S512x1024_S1024x512_S512x512_1_0_0_1_n_n none l r (constant (F := Ideal) S512x512 .f32 0x00000000#32) (ix2 p c)
      = ∑ k : Fin 1024, l (ix2 p k) * r (ix2 k c) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p c) ((contrEquiv1 dot_S512x1024_S1024x512_S512x512_1_0_0_1_n_n 1024 rfl rfl).symm k) = ix2 p k := funext fun a => Fin.ext (by
    match a with
    | ⟨0, _⟩ => exact lhsIn0 _ _
    | ⟨1, _⟩ => exact (lhsIn1 _ _).trans hk)
  have er : dot_S512x1024_S1024x512_S512x512_1_0_0_1_n_n.rhsIdx (ix2 p c) ((contrEquiv1 dot_S512x1024_S1024x512_S512x512_1_0_0_1_n_n 1024 rfl rfl).symm k) = ix2 k c := funext fun a => Fin.ext (by
    match a with
    | ⟨0, _⟩ => exact (rhsIn0 _ _).trans hk
    | ⟨1, _⟩ => exact rhsIn1 _ _)
  rw [el, er]

/-- The second product, the activated chunk [512, 512] by a row chunk [512, 1024] into zero: entry `(p, c)` is `∑ k, l p k · r k c`. -/
theorem matmulOut_apply (l : FVec Ideal S512x512 .bf16) (r : FVec Ideal S512x1024 .bf16) (p : Fin 512) (c : Fin 1024) :
    matmul dot_S512x512_S512x1024_S512x1024_1_0_0_1_n_n none l r (constant (F := Ideal) S512x1024 .f32 0x00000000#32) (ix2 p c)
      = ∑ k : Fin 512, l (ix2 p k) * r (ix2 k c) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 p c) ((contrEquiv1 dot_S512x512_S512x1024_S512x1024_1_0_0_1_n_n 512 rfl rfl).symm k) = ix2 p k := funext fun a => Fin.ext (by
    match a with
    | ⟨0, _⟩ => exact lhsOut0 _ _
    | ⟨1, _⟩ => exact (lhsOut1 _ _).trans hk)
  have er : dot_S512x512_S512x1024_S512x1024_1_0_0_1_n_n.rhsIdx (ix2 p c) ((contrEquiv1 dot_S512x512_S512x1024_S512x1024_1_0_0_1_n_n 512 rfl rfl).symm k) = ix2 k c := funext fun a => Fin.ext (by
    match a with
    | ⟨0, _⟩ => exact (rhsOut0 _ _).trans hk
    | ⟨1, _⟩ => exact rhsOut1 _ _)
  rw [el, er]

/-! ## The three payloads -/

/-- The zero fill is zero everywhere. -/
theorem pay1_apply (j : S512x1024.Idx) : k0_pay1 (F := Ideal) j = 0 := by
  unfold k0_pay1
  simp only [shapeCast_self]
  exact Ideal.ofBits_zero_f32

/-- One trip: the accumulator's entry plus the chunk's contribution. -/
theorem pay2_apply (x : Vec Ideal S512x1024 .f32) (w : Vec Ideal S1024x512 .bf16) (b : Vec Ideal S1x512 .f32)
    (w' : Vec Ideal S512x1024 .bf16) (a : Vec Ideal S512x1024 .f32) (p : Fin 512) (q : Fin 1024) :
    k0_pay2 (F := Ideal) x w b w' a (ix2 p q)
      = a (ix2 p q) + ∑ j : Fin 512,
          gFactored ((∑ k : Fin 1024, x (ix2 p k) * w (ix2 k j)) + b (ix2 (0 : Fin 1) j)) * w' (ix2 j q) := by
  unfold k0_pay2
  simp only [shapeCast_self]
  refine (addf_apply _ _ _).trans ?_
  refine congrArg (a (ix2 p q) + ·) ?_
  refine (matmulOut_apply _ _ p q).trans ?_
  refine Finset.sum_congr rfl fun j _ => congrArg (· * w' (ix2 j q)) ?_
  simp only [truncf_apply, mulf_apply, addf_apply, subf_apply, broadcast_apply, matmulIn_apply,
    broadcastTo_1b_ab_apply]
  rfl

/-- The finishing step: the accumulator's entry plus the second bias' entry of that column. -/
theorem pay3_apply (a : Vec Ideal S512x1024 .f32) (b' : Vec Ideal S1x1024 .f32) (p : Fin 512) (q : Fin 1024) :
    k0_pay3 (F := Ideal) a b' (ix2 p q) = a (ix2 p q) + b' (ix2 (0 : Fin 1) q) := by
  unfold k0_pay3
  simp only [shapeCast_self]
  refine (addf_apply _ _ _).trans ?_
  rw [broadcastTo_1b_ab_apply]

end Cert.KernelIdeal.Body

end
-- ==== Proof.BlockValue.lean ====
/-
  The block one grid point leaves, entry by entry, over the extended reals.

  Trip `k` adds to entry `(p, q)` of the accumulator the contribution of hidden features `512k … 512k+511`; started from
  zero, after `k` trips the entry is the sum of the first `k` chunks' contributions (induction on the trips), after all
  eight it is the sum over all 4096 hidden features (the chunks re-associated), and the finishing step adds the second
  bias: entry `(p, q)` of the block is output feature `q` of row `p` of the input block, with the activation's polynomial
  factored.
-/
import proofs.«117003_j70214125355100_2_alg».proof.Proof.LoopFold
import proofs.«117003_j70214125355100_2_alg».proof.Proof.Payloads

set_option maxRecDepth 16384

noncomputable section

namespace Cert.KernelIdeal.Body

open Cert.KernelIdeal Cert.KernelIdeal.Gen Idealize.ShloMosaic Idealize.ShloMosaic.ValueIdx Cert.Mlp

/-! ## What trip `k` loads, at an index: the chunk's entries of the whole operands -/

/-- The trip as a chunk number. -/
abbrev chunkOf (k : Fin k0_t1_loop.trips) : Fin 8 := k.cast trips_eq

theorem wInChunk_apply (X : Vec Ideal S1024x4096 .bf16) (k : Fin k0_t1_loop.trips) (i : Fin 1024) (j : Fin 512) :
    wInChunk X k (ix2 i j) = X (ix2 i (chunkIdx (chunkOf k) j)) := by
  show X _ = X _
  refine congrArg X (funext fun a => Fin.ext ?_)
  have e := k0_off1_eq k
  match a with
  | ⟨0, _⟩ =>
    show (k0_off1 k) 0 + 1 * i.val = i.val
    rw [e]; show 0 + 1 * i.val = i.val; omega
  | ⟨1, _⟩ =>
    show (k0_off1 k) 1 + 1 * j.val = k.val * 512 + j.val
    rw [e]; show 512 * k.val + 1 * j.val = k.val * 512 + j.val; omega

theorem bInChunk_apply (X : Vec Ideal S1x4096 .f32) (k : Fin k0_t1_loop.trips) (u : Fin 1) (j : Fin 512) :
    bInChunk X k (ix2 u j) = X (ix2 (0 : Fin 1) (chunkIdx (chunkOf k) j)) := by
  show X _ = X _
  refine congrArg X (funext fun a => Fin.ext ?_)
  have e := k0_off2_eq k
  have hu : u.val = 0 := by omega
  match a with
  | ⟨0, _⟩ =>
    show (k0_off2 k) 0 + 1 * u.val = 0
    rw [e]; show 0 + 1 * u.val = 0; omega
  | ⟨1, _⟩ =>
    show (k0_off2 k) 1 + 1 * j.val = k.val * 512 + j.val
    rw [e]; show 512 * k.val + 1 * j.val = k.val * 512 + j.val; omega

theorem wOutChunk_apply (X : Vec Ideal S4096x1024 .bf16) (k : Fin k0_t1_loop.trips) (j : Fin 512) (q : Fin 1024) :
    wOutChunk X k (ix2 j q) = X (ix2 (chunkIdx (chunkOf k) j) q) := by
  show X _ = X _
  refine congrArg X (funext fun a => Fin.ext ?_)
  have e := k0_off3_eq k
  match a with
  | ⟨0, _⟩ =>
    show (k0_off3 k) 0 + 1 * j.val = k.val * 512 + j.val
    rw [e]; show 512 * k.val + 1 * j.val = k.val * 512 + j.val; omega
  | ⟨1, _⟩ =>
    show (k0_off3 k) 1 + 1 * q.val = q.val
    rw [e]; show 0 + 1 * q.val = q.val; omega

/-! ## The accumulator after `k` trips -/

/-- Chunk `c`'s contribution to entry `(p, q)` (zero past the last chunk): the sum over its 512 hidden features of the
    activated feature of row `p` times the second weight matrix's entry. -/
def chunkTerm (x : Vec Ideal S512x1024 .f32) (X2 : Vec Ideal S1024x4096 .bf16) (X3 : Vec Ideal S1x4096 .f32)
    (X4 : Vec Ideal S4096x1024 .bf16) (p : Fin 512) (q : Fin 1024) (c : ℕ) : EReal :=
  if h : c < 8 then
    ∑ j : Fin 512, gFactored (Mlp.hidden (fun k => x (ix2 p k)) (fun k f => X2 (ix2 k f)) (fun f => X3 (ix2 (0 : Fin 1) f))
      (chunkIdx ⟨c, h⟩ j)) * X4 (ix2 (chunkIdx ⟨c, h⟩ j) q)
  else 0

/-- After `k` trips from the zero fill, entry `(p, q)` of the accumulator is the sum of the first `k` chunks' contributions. -/
theorem accAfter_apply (x : Vec Ideal S512x1024 .f32) (X2 : Vec Ideal S1024x4096 .bf16) (X3 : Vec Ideal S1x4096 .f32)
    (X4 : Vec Ideal S4096x1024 .bf16) (p : Fin 512) (q : Fin 1024) :
    ∀ k : ℕ, k ≤ 8 → accAfter x X2 X3 X4 (k0_pay1 (F := Ideal)) k (ix2 p q) = ∑ c ∈ Finset.range k, chunkTerm x X2 X3 X4 p q c
  | 0, _ => pay1_apply _
  | k + 1, hk => by
    have hk8 : k < 8 := hk
    have hk' : k < k0_t1_loop.trips := by rw [trips_eq]; exact hk8
    have ih := accAfter_apply x X2 X3 X4 p q k (Nat.le_of_succ_le hk)
    rw [Finset.sum_range_succ, ← ih]
    rw [show k + 1 = (⟨k, hk'⟩ : Fin k0_t1_loop.trips).val + 1 from rfl, accAfter_succ, pay2_apply]
    refine congrArg (_ + ·) ?_
    unfold chunkTerm
    rw [dif_pos hk8]
    refine Finset.sum_congr rfl fun j _ => ?_
    rw [wOutChunk_apply, bInChunk_apply]
    unfold Mlp.hidden
    simp only [wInChunk_apply]
    rfl

/-! ## The block -/

/-- Entry `(p, q)` of the block a point leaves is output feature `q` of row `p` of its input block. -/
theorem block_apply (x : Vec Ideal S512x1024 .f32) (X2 : Vec Ideal S1024x4096 .bf16) (X3 : Vec Ideal S1x4096 .f32)
    (X4 : Vec Ideal S4096x1024 .bf16) (X5 : Vec Ideal S1x1024 .f32) (p : Fin 512) (q : Fin 1024) :
    k0_pay3 (F := Ideal) (accAfter x X2 X3 X4 (k0_pay1 (F := Ideal)) k0_t1_loop.trips) X5 (ix2 p q)
      = outRow gFactored (fun k => x (ix2 p k)) (fun k f => X2 (ix2 k f)) (fun f => X3 (ix2 (0 : Fin 1) f))
          (fun f d => X4 (ix2 f d)) (fun d => X5 (ix2 (0 : Fin 1) d)) q := by
  rw [pay3_apply, trips_eq, accAfter_apply x X2 X3 X4 p q 8 le_rfl]
  unfold outRow
  rw [sum_chunks, ← Fin.sum_univ_eq_sum_range]
  refine congrArg (· + _) (Finset.sum_congr rfl fun c _ => ?_)
  unfold chunkTerm
  rw [dif_pos c.isLt]

end Cert.KernelIdeal.Body

end
-- ==== Proof.ArrayValue.lean ====
/-
  From the blocks to the whole result of the pallas_call.

  The grid has 32 points; point `t` is handed rows `512t … 512t+511` of the flattened input [16384, 1024] and the two weight
  matrices and two bias rows whole, and writes back rows `512t … 512t+511` of the [16384, 1024] result. By the block's value,
  entry `(p, q)` of what point `t` writes is output feature `q` of input row `512t + p`: the blocks are the restrictions
  of ONE function of the arrays the region finds, `rowsResult`, and as the 32 blocks tile the 16384 rows the result array
  ends holding that function.
-/
import proofs.«117003_j70214125355100_2_alg».proof.Proof.BlockValue

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem Cert.Mlp
open Idealize.ShloMosaic.Pipeline (Dat)

variable (m : (ℓ : Loc nD τ sig) → Buf (Elt Ideal) ℓ)

/-- The printed index maps over the grid: the input rows' and the result's block index is the point, every other block
    index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row `512t + p` of the array. -/
def rowOf (t : Fin cfg0.N) (p : Fin 512) : Fin 16384 :=
  ⟨t.val * 512 + p.val, by have := t.isLt; have hN : cfg0.N = 32 := N_0; have := p.isLt; omega⟩

/-! ## The input blocks, read at an index, are entries of the arrays the region finds -/

theorem iblk0_apply (c : Dev nD) (t : Fin cfg0.N) (p : Fin 512) (k : Fin 1024) :
    (iblk m c 0 t : S512x1024.Idx → EReal) (ix2 p k) = (V m c main_v0 : S16384x1024.Idx → EReal) (ix2 (rowOf t p) k) := by
  show (V m c main_v0 : S16384x1024.Idx → EReal) (((cfg0.win 0).blk t).view.emb (ix2 p k)) = _
  refine congrArg (V m c main_v0 : S16384x1024.Idx → EReal) (funext fun a => Fin.ext ?_)
  obtain ⟨e0, e1, -⟩ := idx_facts t
  match a with
  | ⟨0, _⟩ => show win0_0.index t (0 : Fin 2) * 512 + 1 * p.val = t.val * 512 + p.val; rw [e0]; omega
  | ⟨1, _⟩ => show win0_0.index t (1 : Fin 2) * 1024 + 1 * k.val = k.val; rw [e1]; omega

theorem iblk1_apply (c : Dev nD) (t : Fin cfg0.N) (k : Fin 1024) (f : Fin 4096) :
    (iblk m c 1 t : S1024x4096.Idx → EReal) (ix2 k f) = (V m c main_v1 : S1024x4096.Idx → EReal) (ix2 k f) := by
  show (V m c main_v1 : S1024x4096.Idx → EReal) (((cfg0.win 1).blk t).view.emb (ix2 k f)) = _
  refine congrArg (V m c main_v1 : S1024x4096.Idx → EReal) (funext fun a => Fin.ext ?_)
  obtain ⟨-, -, e0, e1, -⟩ := idx_facts t
  match a with
  | ⟨0, _⟩ => show win0_1.index t (0 : Fin 2) * 1024 + 1 * k.val = k.val; rw [e0]; omega
  | ⟨1, _⟩ => show win0_1.index t (1 : Fin 2) * 4096 + 1 * f.val = f.val; rw [e1]; omega

theorem iblk2_apply (c : Dev nD) (t : Fin cfg0.N) (u : Fin 1) (f : Fin 4096) :
    (iblk m c 2 t : S1x4096.Idx → EReal) (ix2 u f) = (V m c main_v3 : S1x4096.Idx → EReal) (ix2 u f) := by
  show (V m c main_v3 : S1x4096.Idx → EReal) (((cfg0.win 2).blk t).view.emb (ix2 u f)) = _
  refine congrArg (V m c main_v3 : S1x4096.Idx → EReal) (funext fun a => Fin.ext ?_)
  obtain ⟨-, -, -, -, e0, e1, -⟩ := idx_facts t
  match a with
  | ⟨0, _⟩ => show win0_2.index t (0 : Fin 2) * 1 + 1 * u.val = u.val; rw [e0]; omega
  | ⟨1, _⟩ => show win0_2.index t (1 : Fin 2) * 4096 + 1 * f.val = f.val; rw [e1]; omega

theorem iblk3_apply (c : Dev nD) (t : Fin cfg0.N) (f : Fin 4096) (d : Fin 1024) :
    (iblk m c 3 t : S4096x1024.Idx → EReal) (ix2 f d) = (V m c main_v2 : S4096x1024.Idx → EReal) (ix2 f d) := by
  show (V m c main_v2 : S4096x1024.Idx → EReal) (((cfg0.win 3).blk t).view.emb (ix2 f d)) = _
  refine congrArg (V m c main_v2 : S4096x1024.Idx → EReal) (funext fun a => Fin.ext ?_)
  obtain ⟨-, -, -, -, -, -, e0, e1, -⟩ := idx_facts t
  match a with
  | ⟨0, _⟩ => show win0_3.index t (0 : Fin 2) * 4096 + 1 * f.val = f.val; rw [e0]; omega
  | ⟨1, _⟩ => show win0_3.index t (1 : Fin 2) * 1024 + 1 * d.val = d.val; rw [e1]; omega

theorem iblk4_apply (c : Dev nD) (t : Fin cfg0.N) (u : Fin 1) (d : Fin 1024) :
    (iblk m c 4 t : S1x1024.Idx → EReal) (ix2 u d) = (V m c main_v4 : S1x1024.Idx → EReal) (ix2 u d) := by
  show (V m c main_v4 : S1x1024.Idx → EReal) (((cfg0.win 4).blk t).view.emb (ix2 u d)) = _
  refine congrArg (V m c main_v4 : S1x1024.Idx → EReal) (funext fun a => Fin.ext ?_)
  obtain ⟨-, -, -, -, -, -, -, -, e0, e1, -⟩ := idx_facts t
  match a with
  | ⟨0, _⟩ => show win0_4.index t (0 : Fin 2) * 1 + 1 * u.val = u.val; rw [e0]; omega
  | ⟨1, _⟩ => show win0_4.index t (1 : Fin 2) * 1024 + 1 * d.val = d.val; rw [e1]; omega

/-! ## One function of the arrays the region finds -/

/-- The block applied to every row of the flattened input: entry `(r, q)` is output feature `q` of row `r`, the weights and
    biases those the region finds (the biases as one-row matrices). -/
def rowsResult (c : Dev nD) : S16384x1024.Idx → EReal := fun i =>
  outRow gFactored (fun k => (V m c main_v0 : S16384x1024.Idx → EReal) (ix2 (i 0) k))
    (fun k f => (V m c main_v1 : S1024x4096.Idx → EReal) (ix2 k f))
    (fun f => (V m c main_v3 : S1x4096.Idx → EReal) (ix2 (0 : Fin 1) f))
    (fun f d => (V m c main_v2 : S4096x1024.Idx → EReal) (ix2 f d))
    (fun d => (V m c main_v4 : S1x1024.Idx → EReal) (ix2 (0 : Fin 1) d)) (i 1)

/-- What point `t`'s body leaves, at `(p, q)`: `rowsResult` at row `512t + p`. -/
theorem outsAt_apply (c : Dev nD) (t : Fin cfg0.N) (p : Fin 512) (q : Fin 1024) :
    (outsAt0 m c t : S512x1024.Idx → EReal) (ix2 p q) = rowsResult m c (ix2 (rowOf t p) q) := by
  unfold outsAt0
  refine (congrFun (out_eq (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) (iblk m c 0 t) (iblk m c 1 t) (iblk m c 2 t)
    (iblk m c 3 t) (iblk m c 4 t)) (ix2 p q)).trans ?_
  refine (block_apply (iblk m c 0 t) (iblk m c 1 t) (iblk m c 2 t) (iblk m c 3 t) (iblk m c 4 t) p q).trans ?_
  unfold rowsResult
  simp only [iblk0_apply m c t, iblk1_apply m c t, iblk2_apply m c t, iblk3_apply m c t, iblk4_apply m c t]

/-- The same at any index of the block, placed in the array by the result window's rectangle. -/
theorem outsAt_eq (c : Dev nD) (t : Fin cfg0.N) (j : S512x1024.Idx) :
    (outsAt0 m c t : S512x1024.Idx → EReal) j = rowsResult m c (((cfg0.win 5).blk t).view.emb j) := by
  obtain ⟨p, q, rfl⟩ : ∃ (p : Fin 512) (q : Fin 1024), j = ix2 p q := ⟨j 0, j 1, eq_ix2 j⟩
  rw [outsAt_apply]
  refine congrArg (rowsResult m c) (funext fun a => Fin.ext ?_)
  obtain ⟨-, -, -, -, -, -, -, -, -, -, e0, e1⟩ := idx_facts t
  match a with
  | ⟨0, _⟩ => show t.val * 512 + p.val = win0_5.index t (0 : Fin 2) * 512 + 1 * p.val; rw [e0]; omega
  | ⟨1, _⟩ => show q.val = win0_5.index t (1 : Fin 2) * 1024 + 1 * q.val; rw [e1]; omega

/-- WHAT POINT `t` WRITES BACK is block `t` of `rowsResult`. -/
theorem flushed_eq (c : Dev nD) (t : Fin cfg0.N) :
    (dats m 0 c).flushed 5 t = ((cfg0.win 5).blk t).view.read (Elt Ideal) (rowsResult m c) := by
  show (cfg0.win 5).cut (grid0.coords t) ((dats m 0 c).after 5 t) = _
  rw [after0_5]
  funext j
  exact outsAt_eq m c t j

/-! ## The blocks tile the rows -/

/-- An index of the result is in point `t`'s block iff each coordinate is in the block's range on its axis. -/
theorem mem_blk (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v5).slice (win0_5.rect t)).set ↔ _
  rw [View.set_slice_whole, Rect.mem_set_unit]
  exact Iff.rfl

/-- Row `r` is in the block of point `r / 512`. -/
theorem cover (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  have hN : cfg0.N = 32 := N_0
  let t : Fin cfg0.N := ⟨(i 0).val / 512, by omega⟩
  have ht : t.val = (i 0).val / 512 := rfl
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 1024 ≤ (i 1).val ∧ (i 1).val < win0_5.index t (1 : Fin 2) * 1024 + 1024; rw [e1]; omega

/-- THE RESULT ARRAY of the pallas_call after the run is `rowsResult`. -/
theorem final (c : Dev nD) : (dats m 0 c).arrAt 5 cfg0.N = rowsResult m c :=
  (dats m 0 c).arrAt_eq_of_cover 5 (rowsResult m c) (fun t _ => flushed_eq m c t) (cover)

end Cert.KernelIdeal.Body

end
-- ==== Proof.HostValue.lean ====
/-
  The host side of the kernel program, read at an index.

  Before the region the program prepares the five operands: the [4, 4096, 1024] array of rows is flattened to a
  [16384, 1024] matrix, row `r = 4096·b + s` of the matrix being row `(b, s)` of the array; the two weight matrices change
  float format, which over the extended reals is the identity; each of the two bias vectors is read as a one-row matrix,
  entry `(0, f)` of the matrix being entry `f` of the vector. After the region the [16384, 1024] result is unflattened to
  [4, 4096, 1024] by the same correspondence of rows.

  A reshape keeps the elements in row-major order, so each statement is an equation between two row-major positions:
  `((b·4096 + s)·1024 + d)` on both sides for the flattening, with `b = r / 4096` and `s = r % 4096`.
-/
import proofs.«117003_j70214125355100_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Body

open Cert.KernelIdeal Cert.KernelIdeal.Gen Idealize.ShloMosaic Idealize.ShloMosaic.TcCoe Idealize.ShloMosaic.ValueIdx Idealize.SL.Sem

/-! ## The two reshapes of the rows, on any array -/

/-- A [4, 4096, 1024] array flattened to [16384, 1024] reads, at `(r, k)`, the array at `(r / 4096, r % 4096, k)`. -/
theorem flatten_apply (X : S4x4096x1024.Idx → EReal) (r : Fin 16384) (k : Fin 1024) :
    shapeCast S16384x1024 X shapeCasts_S4x4096x1024_S16384x1024 (ix2 r k)
      = X (ix3 (⟨r.val / 4096, by have := r.isLt; omega⟩ : Fin 4) (⟨r.val % 4096, by omega⟩ : Fin 4096) k) :=
  shapeCast_apply X _ _ _ (by
    rw [Shape.rowMajor_val_three, Shape.rowMajor_val_two]
    show (r.val / 4096 * 4096 + r.val % 4096) * 1024 + k.val = r.val * 1024 + k.val
    omega)

/-- A [16384, 1024] matrix unflattened to [4, 4096, 1024] reads, at `(b, s, d)`, the matrix at `(4096·b + s, d)`. -/
theorem unflatten_apply (Y : S16384x1024.Idx → EReal) (b : Fin 4) (s : Fin 4096) (d : Fin 1024) :
    shapeCast S4x4096x1024 Y shapeCasts_S16384x1024_S4x4096x1024 (ix3 b s d)
      = Y (ix2 (⟨b.val * 4096 + s.val, by have := b.isLt; have := s.isLt; omega⟩ : Fin 16384) d) :=
  shapeCast_apply Y _ _ _ (by
    rw [Shape.rowMajor_val_two, Shape.rowMajor_val_three]
    show (b.val * 4096 + s.val) * 1024 + d.val = (b.val * 4096 + s.val) * 1024 + d.val
    rfl)

/-! ## The five operands when the region is entered -/

variable (m : (ℓ : Loc nD τ sig) → Buf (Elt Ideal) ℓ) (c : Dev nD)

/-- The first operand is the array of rows, flattened: row `r` of the matrix is row `(r / 4096, r % 4096)` of the array. -/
theorem V_v0_apply (r : Fin 16384) (k : Fin 1024) :
    (V m c main_v0 : S16384x1024.Idx → EReal) (ix2 r k)
      = (m ((c : Thread nD τ).loc main_arg0) : S4x4096x1024.Idx → EReal) (ix3 (⟨r.val / 4096, by have := r.isLt; omega⟩ : Fin 4) (⟨r.val % 4096, by omega⟩ : Fin 4096) k) := by
  have e : (V m c main_v0 : S16384x1024.Idx → EReal)
      = shapeCast S16384x1024 (m ((c : Thread nD τ).loc main_arg0) : S4x4096x1024.Idx → EReal) shapeCasts_S4x4096x1024_S16384x1024 := by
    show StableHlo.after hostOps0 (fun b => m (c, b)) (Proc.devRef .tc main_v0) = _
    after_results
    rfl
  exact (congrFun e (ix2 r k)).trans (flatten_apply _ r k)

/-- The second operand is the first weight matrix: the change of float format is the identity over the extended reals. -/
theorem V_v1_eq : (V m c main_v1 : S1024x4096.Idx → EReal) = (m ((c : Thread nD τ).loc main_arg1) : S1024x4096.Idx → EReal) := by
  show StableHlo.after hostOps0 (fun b => m (c, b)) (Proc.devRef .tc main_v1) = _
  after_results
  rfl

/-- The fourth operand is the second weight matrix, likewise. -/
theorem V_v2_eq : (V m c main_v2 : S4096x1024.Idx → EReal) = (m ((c : Thread nD τ).loc main_arg3) : S4096x1024.Idx → EReal) := by
  show StableHlo.after hostOps0 (fun b => m (c, b)) (Proc.devRef .tc main_v2) = _
  after_results
  rfl

/-- The third operand is the first bias read as a one-row matrix. -/
theorem V_v3_apply (u : Fin 1) (f : Fin 4096) :
    (V m c main_v3 : S1x4096.Idx → EReal) (ix2 u f) = (m ((c : Thread nD τ).loc main_arg2) : S4096.Idx → EReal) (ix1 f) := by
  have e : (V m c main_v3 : S1x4096.Idx → EReal)
      = shapeCast S1x4096 (m ((c : Thread nD τ).loc main_arg2) : S4096.Idx → EReal) shapeCasts_S4096_S1x4096 := by
    show StableHlo.after hostOps0 (fun b => m (c, b)) (Proc.devRef .tc main_v3) = _
    after_results
    rfl
  exact (congrFun e (ix2 u f)).trans (shapeCast_a_1a_apply _ _ u f)

/-- The fifth operand is the second bias read as a one-row matrix. -/
theorem V_v4_apply (u : Fin 1) (d : Fin 1024) :
    (V m c main_v4 : S1x1024.Idx → EReal) (ix2 u d) = (m ((c : Thread nD τ).loc main_arg4) : S1024.Idx → EReal) (ix1 d) := by
  have e : (V m c main_v4 : S1x1024.Idx → EReal)
      = shapeCast S1x1024 (m ((c : Thread nD τ).loc main_arg4) : S1024.Idx → EReal) shapeCasts_S1024_S1x1024 := by
    show StableHlo.after hostOps0 (fun b => m (c, b)) (Proc.devRef .tc main_v4) = _
    after_results
    rfl
  exact (congrFun e (ix2 u d)).trans (shapeCast_a_1a_apply _ _ u d)

end Cert.KernelIdeal.Body

end
-- ==== Proof.KernelRun.lean ====
/-
  The kernel program's run, with its result named.

  The pallas_call leaves `rowsResult` in its [16384, 1024] result array; the one host operation after it unflattens that
  array to [4, 4096, 1024]. Read at `(b, s, d)` the unflattened array is `rowsResult` at row `4096·b + s`, whose input row is
  row `(b, s)` of the first argument (flattening and unflattening undo each other on the row number), the weight matrices
  are the second and fourth arguments (a change of float format is the identity over the extended reals) and the one-row
  biases are the third and fifth: the program's result is the feed-forward block `G` of its five arguments, the activation's
  polynomial in its factored arrangement.
-/
import proofs.«117003_j70214125355100_2_alg».proof.Proof.ArrayValue
import proofs.«117003_j70214125355100_2_alg».proof.Proof.HostValue

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem Cert.Mlp
open Idealize.ShloMosaic.Pipeline (Dat)

variable (m : (ℓ : Loc nD τ sig) → Buf (Elt Ideal) ℓ) (ρ : Dev nD → PrngReg)

/-- Row `4096·b + s` of the flattened array is row `(b, s)`. -/
theorem row_index (b : Fin 4) (s : Fin 4096) (k : Fin 1024)
    (h2 : (b.val * 4096 + s.val) / 4096 < 4) (h3 : (b.val * 4096 + s.val) % 4096 < 4096) :
    (ix3 (⟨(b.val * 4096 + s.val) / 4096, h2⟩ : Fin 4) (⟨(b.val * 4096 + s.val) % 4096, h3⟩ : Fin 4096) k :
        (⟨3, ![4, 4096, 1024]⟩ : Shape).Idx)
      = ix3 b s k := by
  funext a
  have hs := s.isLt
  match a with
  | ⟨0, _⟩ => exact Fin.ext (by show (b.val * 4096 + s.val) / 4096 = b.val; omega)
  | ⟨1, _⟩ => exact Fin.ext (by show (b.val * 4096 + s.val) % 4096 = s.val; omega)
  | ⟨2, _⟩ => rfl

/-- `rowsResult` at `(r, d)` in terms of the program's arguments. -/
theorem rowsResult_apply (c : Dev nD) (r : Fin 16384) (d : Fin 1024) :
    rowsResult m c (ix2 r d)
      = outRow gFactored
          (fun k => (m ((c : Thread nD τ).loc main_arg0) : S4x4096x1024.Idx → EReal)
            (ix3 (⟨r.val / 4096, by have := r.isLt; omega⟩ : Fin 4) (⟨r.val % 4096, by omega⟩ : Fin 4096) k))
          (fun k f => (m ((c : Thread nD τ).loc main_arg1) : S1024x4096.Idx → EReal) (ix2 k f))
          (fun f => (m ((c : Thread nD τ).loc main_arg2) : S4096.Idx → EReal) (ix1 f))
          (fun f d => (m ((c : Thread nD τ).loc main_arg3) : S4096x1024.Idx → EReal) (ix2 f d))
          (fun d => (m ((c : Thread nD τ).loc main_arg4) : S1024.Idx → EReal) (ix1 d)) d := by
  show outRow gFactored (fun k => (V m c main_v0 : S16384x1024.Idx → EReal) (ix2 r k))
    (fun k f => (V m c main_v1 : S1024x4096.Idx → EReal) (ix2 k f))
    (fun f => (V m c main_v3 : S1x4096.Idx → EReal) (ix2 (0 : Fin 1) f))
    (fun f d => (V m c main_v2 : S4096x1024.Idx → EReal) (ix2 f d))
    (fun d => (V m c main_v4 : S1x1024.Idx → EReal) (ix2 (0 : Fin 1) d)) d = _
  simp only [V_v0_apply m c, V_v1_eq m c, V_v2_eq m c, V_v3_apply m c, V_v4_apply m c]

/-- The result of the pallas_call, unflattened, is the block of the five arguments. -/
theorem unflatten_rowsResult (c : Dev nD) :
    shapeCast S4x4096x1024 (rowsResult m c) shapeCasts_S16384x1024_S4x4096x1024
      = G gFactored (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨b, s, d, rfl⟩ : ∃ (b : Fin 4) (s : Fin 4096) (d : Fin 1024), i = ix3 b s d := ⟨i 0, i 1, i 2, eq_ix3 i⟩
  rw [unflatten_apply, rowsResult_apply]
  simp only [row_index]
  rfl

/-- What the program's last host operation leaves in the result buffer. -/
theorem result_eq (c : Dev nD) :
    Pipeline.afterTail₀ cfgs (dats m) 0 (V0 m) [hostOps1] c main_v6
      = G gFactored (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.tc.devRef main_v5)
      = rowsResult m c :=
    (Pipeline.withArrays_arr spec0 launch0.win.arr_inj c _ _ 5).trans (final m c)
  rw [e]
  exact unflatten_rowsResult m c

/-- THE RUN: every weakly fair execution of the program terminates with the result buffer at `G gFactored` of the arguments
    and the arguments unchanged. -/
theorem run : θ_run defs (onTc (τ := τ) (main (F := Ideal))) ⟨m, fun _ => 0, ρ⟩ fun r => ∀ c : Dev nD,
      r.2.mem ((c.tc : Thread nD τ).loc main_v6)
        = G gFactored (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Body

end
-- ==== Proof.RefValue.lean ====
/-
  The reference program's result is the feed-forward block `G` with the activation's polynomial in its expanded
  arrangement.

  The reference computes, one array operation at a time, `h = x·W + b` (a contraction over the 1024 input features and a
  broadcast bias), `z = c₁·h`, `σ = (p + q·z) − c₂·((z·z)·z)`, `a = h·σ`, and `out = a·W' + b'` (a contraction over the
  4096 hidden features and a broadcast bias). Read at an index `(s, t, d)` of the [4, 4096, 1024] result, every
  operation touches one element of each operand, and the indices it composes are the coordinates themselves: the row
  `(s, t)` of `x`, the column `f` of `W` and entry `f` of `b` for hidden feature `f`, the column `d` of `W'` and entry `d`
  of `b'`. With those identifications the element is, term for term, `outRow gExpanded` of row `(s, t)` at `d`. No
  arithmetic law is used: the two sides are the same expression.
-/
import proofs.«117003_j70214125355100_2_alg».proof.Proof.Gen.ReferenceIdeal.Read
import proofs.«117003_j70214125355100_2_alg».proof.Proof.Spec

noncomputable section

namespace Cert.Mlp

open Cert.ReferenceIdeal Cert.ReferenceIdeal.Read Idealize.ShloMosaic Idealize.ShloMosaic.ValueIdx

/-- The reference's result, as a function of its five inputs, is `G gExpanded`: entry `(s, t, d)` is output feature `d`
    of row `(s, t)` through the block, the activation being `h ↦ h · ((p + q·(c₁h)) − c₂·(((c₁h)·(c₁h))·(c₁h)))`. -/
theorem reference_eq_G (x0 : (⟨Cert.ReferenceIdeal.S4x4096x1024, .f32⟩ : BufTy).Contents (Elt Ideal)) (x1 : (⟨Cert.ReferenceIdeal.S1024x4096, .f32⟩ : BufTy).Contents (Elt Ideal)) (x2 : (⟨Cert.ReferenceIdeal.S4096, .f32⟩ : BufTy).Contents (Elt Ideal)) (x3 : (⟨Cert.ReferenceIdeal.S4096x1024, .f32⟩ : BufTy).Contents (Elt Ideal)) (x4 : (⟨Cert.ReferenceIdeal.S1024, .f32⟩ : BufTy).Contents (Elt Ideal)) :
    Cert.ReferenceIdeal.Read.val_main_v19 (F := Ideal) x0 x1 x2 x3 x4 = Cert.Mlp.G Cert.Mlp.gExpanded x0 x1 x2 x3 x4 := by
  funext i
  -- the element at `i`, read through every operation down to the inputs
  simp only [val_main_v19_apply, val_main_v18_apply, val_main_v17_apply, val_main_v16_apply, val_main_v15_apply,
    val_main_v14_apply, val_main_v13_apply, val_main_v12_apply, val_main_cst_2_apply, val_main_v11_apply,
    val_main_v10_apply, val_main_v9_apply, val_main_v8_apply, val_main_cst_1_apply, val_main_v7_apply,
    val_main_v6_apply, val_main_cst_0_apply, val_main_v5_apply, val_main_v4_apply, val_main_cst_apply,
    val_main_v3_apply, val_main_v2_apply, val_main_v1_apply, val_main_v0_apply,
    Ideal.mulf_def, Ideal.addf_def, Ideal.subf_def, Ideal.ofBits_def]
  unfold G outRow hidden gExpanded actExpanded
  -- the composed indices are the coordinates: entry `d` of `b'`, column `d` of `W'`, entry `f` of `b`, column `f` of `W`,
  -- row `(s, t)` of `x`
  have e4 : idx_main_v17 (idx_main_v18 i) = ix1 (i 2) :=
    funext fun a => Fin.ext (by match a with | ⟨0, _⟩ => rfl)
  have e3 : ∀ f : Fin 4096, ridx_main_v16 i f = ix2 f (i 2) := fun f =>
    funext fun a => Fin.ext (by match a with | ⟨0, _⟩ => rfl | ⟨1, _⟩ => rfl)
  have e2 : ∀ f : Fin 4096, idx_main_v1 (idx_main_v2 (lidx_main_v16 i f)) = ix1 f := fun f =>
    funext fun a => Fin.ext (by match a with | ⟨0, _⟩ => rfl)
  have e1 : ∀ (f : Fin 4096) (k : Fin 1024), ridx_main_v0 (lidx_main_v16 i f) k = ix2 k f := fun f k =>
    funext fun a => Fin.ext (by match a with | ⟨0, _⟩ => rfl | ⟨1, _⟩ => rfl)
  have e0 : ∀ (f : Fin 4096) (k : Fin 1024), lidx_main_v0 (lidx_main_v16 i f) k = ix3 (i 0) (i 1) k := fun f k =>
    funext fun a => Fin.ext (by match a with | ⟨0, _⟩ => rfl | ⟨1, _⟩ => rfl | ⟨2, _⟩ => rfl)
  simp only [e0, e1, e2, e3, e4]
  -- what is left differs only by the names of the four coefficients
  rfl

end Cert.Mlp

end
-- ==== Proof.Finite.lean ====
/-
  The precondition says that every entry of every input is a real number.

  For each input `a` the precondition compares `|a i|` with `+∞` (strictly below) at every index, folds the comparisons of
  one input by `and` into a single bit, and folds the five bits by `and`; it states that the result is 1. A conjunction
  that is 1 has both sides 1, and a fold by `and` over all indices that is 1 met a 1 at every index, so `|a i| < +∞` holds
  for every `i`. In the extended reals `|x| = max x (−x)` is `+∞` at both infinities, so `|x| < +∞` leaves only the real
  numbers. The pattern `0x7F800000` (exponent all ones, significand zero, sign clear) denotes `+∞`.

  Only the first three inputs (the rows, the first weight matrix and the first bias) are decoded: they are the ones on
  which the hidden features depend.
-/
import proofs.«117003_j70214125355100_2_alg».proof.Pre_finite_inputs
import proofs.«117003_j70214125355100_2_alg».proof.Proof.Gen.Pre_finite_inputs
import Idealize.ShloMosaic.Lib.ReduceAll
import Idealize.ShloMosaic.Lib.ValueIdx
import Idealize.ShloMosaic.PureOps.Ideal

noncomputable section

namespace Cert.Mlp

open Idealize.ShloMosaic

/-- The scalar shape has one index. -/
instance subsingleton_scalarIdx : Subsingleton Cert.Pre_finite_inputs.S_.Idx := ⟨fun a b => funext fun d => d.elim0⟩

/-- The f32 pattern with exponent all ones, significand zero and sign clear denotes `+∞`. -/
theorem inf_eq_top : Ideal.ofBits .f32 0x7F800000#32 = (⊤ : EReal) := by
  simp [Ideal.ofBits, Ideal.ieee]

/-- An extended real whose absolute value `max x (−x)` is strictly below `+∞` is a real number: at `−∞` and at `+∞` the
    absolute value is `+∞`. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => simp [Ideal.cmp] at h
  | coe r => exact ⟨r, rfl⟩
  | top => simp [Ideal.cmp] at h

/-- When the precondition holds, every entry of the first three inputs is a real number. -/
theorem real_of_pre [Cert.Pre_finite_inputs.Facts] (a0 : FVec Ideal Cert.Pre_finite_inputs.S4x4096x1024 .f32) (a1 : FVec Ideal Cert.Pre_finite_inputs.S1024x4096 .f32) (a2 : FVec Ideal Cert.Pre_finite_inputs.S4096 .f32) (a3 : FVec Ideal Cert.Pre_finite_inputs.S4096x1024 .f32) (a4 : FVec Ideal Cert.Pre_finite_inputs.S1024 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) := by
  -- the result at its one index: the five per-input bits, and-ed left to right
  have e := congrFun h ValueIdx.ix0
  dsimp only [Cert.Pre_finite_inputs.fn, Cert.Pre_finite_inputs.fn_part1] at e
  simp only [andi, IntOp.andi_eq_one] at e
  obtain ⟨⟨⟨⟨h0, h1⟩, h2⟩, -⟩, -⟩ := e
  -- each bit is a fold by `and` over all indices of `|a i| < +∞`
  refine ⟨fun i => ?_, fun i => ?_, fun i => ?_⟩
  · exact real_of_abs_lt_inf (a0 i) (Host.reduce_andi_all _ _ _ _ _ h0 i)
  · exact real_of_abs_lt_inf (a1 i) (Host.reduce_andi_all _ _ _ _ _ h1 i)
  · exact real_of_abs_lt_inf (a2 i) (Host.reduce_andi_all _ _ _ _ _ h2 i)

end Cert.Mlp

end
-- ==== Proof.lean ====
/-
  A two-layer feed-forward block, `out = act(x·W + b)·W' + b'` with `act h = h·σ(c₁·h)` and `σ` a cubic polynomial, computed by
  a tiled kernel and by a plain array program; this file proves that, over the extended reals and on finite inputs, the
  two compute the same [4, 4096, 1024] array, and that each program runs to completion leaving its arguments unchanged.

  The kernel flattens the 4·4096 rows of `x`, gives each of 32 grid points 512 of them, and at each point accumulates the
  second product over the 4096 hidden features in eight chunks of 512, evaluating `σ z` as `p + z·(q − c₂·(z·z))`. The array
  program contracts over all 4096 hidden features at once and evaluates `σ z` as `(p + q·z) − c₂·((z·z)·z)`. Three things
  make them equal:
    * a change of float format is the identity over the extended reals, and a matrix product into zero is the plain sum of
      products, so what a grid point writes is, entry by entry, the block's output feature of its input row
      (`Proof/Payloads.lean`, `Proof/LoopFold.lean`, `Proof/BlockValue.lean`);
    * sums over the extended reals may be re-associated freely: eight chunk sums are the one sum over the hidden features, and
      the 32 row blocks tile the rows (`Proof/Spec.lean` `sum_chunks`, `Proof/ArrayValue.lean`, `Proof/KernelRun.lean`);
    * the two arrangements of `σ` agree by distributivity, which over the extended reals holds at real numbers only: the
      precondition makes every input entry real (`Proof/Finite.lean`), hence every hidden feature real, and the four
      coefficients are real (`Proof/Spec.lean` `G_factored_eq_expanded`).
  The array program's result is the block with `σ` expanded, term for term (`Proof/RefValue.lean`).

  The idealized kernel is the kernel's own text read over the extended reals (nothing was rewritten), so the statement
  relating the two is trivial.
-/
import proofs.«117003_j70214125355100_2_alg».proof.Defs
import proofs.«117003_j70214125355100_2_alg».proof.Proof.Gen.Kernel
import proofs.«117003_j70214125355100_2_alg».proof.Proof.Gen.Kernel.Skeleton
import proofs.«117003_j70214125355100_2_alg».proof.Proof.Gen.Kernel.Loops
import proofs.«117003_j70214125355100_2_alg».proof.Proof.Gen.Kernel.Launch
import proofs.«117003_j70214125355100_2_alg».proof.Proof.Gen.Kernel.Points
import proofs.«117003_j70214125355100_2_alg».proof.Proof.Gen.Kernel.Frame
import proofs.«117003_j70214125355100_2_alg».proof.Proof.Gen.KernelIdeal
import proofs.«117003_j70214125355100_2_alg».proof.Proof.Gen.KernelIdeal.Skeleton
import proofs.«117003_j70214125355100_2_alg».proof.Proof.Gen.KernelIdeal.Loops
import proofs.«117003_j70214125355100_2_alg».proof.Proof.Gen.KernelIdeal.Launch
import proofs.«117003_j70214125355100_2_alg».proof.Proof.Gen.KernelIdeal.Points
import proofs.«117003_j70214125355100_2_alg».proof.Proof.Gen.KernelIdeal.Frame
import proofs.«117003_j70214125355100_2_alg».proof.Proof.Gen.ReferenceIdeal
import proofs.«117003_j70214125355100_2_alg».proof.Proof.Gen.Pre_finite_inputs
import proofs.«117003_j70214125355100_2_alg».proof.Proof.Gen.ReferenceIdeal.Run
import proofs.«117003_j70214125355100_2_alg».proof.Proof.Gen.ReferenceIdeal.Read
import proofs.«117003_j70214125355100_2_alg».proof.Proof.KernelRun
import proofs.«117003_j70214125355100_2_alg».proof.Proof.RefValue
import proofs.«117003_j70214125355100_2_alg».proof.Proof.Finite
import Idealize.ShloMosaic.Adequacy
import Idealize.ShloMosaic.Init

noncomputable section

namespace Cert.Proof

open Idealize.ShloMosaic Idealize.ShloMosaic.TcCoe Idealize.SL.Sem

/-- The kernel runs to completion and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the array program: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel's text was rewritten for the extended reals. -/
theorem preserves : Cert.preserves_Kernel_KernelIdeal := trivial

/-- On finite inputs, the kernel ends with the block of its arguments (polynomial factored), the array program with the
    block of the same arguments (polynomial expanded), and on real inputs those are one array. -/
theorem algebraic : Cert.algebraic_KernelIdeal_ReferenceIdeal := by
  intro m ρ m' ρ' hpre hagree
  refine ⟨_, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw, hb⟩ := Cert.Mlp.real_of_pre _ _ _ _ _ (hpre c)
  rw [Cert.ReferenceIdeal.Read.val_main_v19_eq, Cert.Mlp.reference_eq_G, (hagree c).1, (hagree c).2.1, (hagree c).2.2.1,
    (hagree c).2.2.2.1, (hagree c).2.2.2.2]
  exact (Cert.Mlp.G_factored_eq_expanded _ _ _ _ _ hx hw hb).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
